-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S256x128 .f32) (main_arg9 : FVec F S128 .f32) (main_arg10 : FVec F S128x128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : IVec S2048 32) (main_arg1 : IVec S2048 32) (main_arg2 : FVec F S50000x512 .f32) (main_arg3 : IVec S800000 32) (main_arg4 : IVec S800000 32) (main_arg5 : FVec F S800000 .f32) (main_arg6 : FVec F S512x256 .f32) (main_arg7 : FVec F S256 .f32) (main_arg8 : FVec F S256x128 .f32) (main_arg9 : FVec F S128 .f32) (main_arg10 : FVec F S128x128 .f32) : IVec S_ 1 :=
  let main_v0 : FVec F S50000x512 .f32 := Host.absf main_arg2
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg5
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg6
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_v13 main_v16
-- ==== Kernel.lean ====
abbrev S2048 : Shape := ⟨1, ![2048]⟩
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S50000x256 : Shape := ⟨2, ![50000, 256]⟩
abbrev S2000x512 : Shape := ⟨2, ![2000, 512]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S2048x1 : Shape := ⟨2, ![2048, 1]⟩
abbrev S2048x128 : Shape := ⟨2, ![2048, 128]⟩
abbrev S2048x2048 : Shape := ⟨2, ![2048, 2048]⟩
abbrev S256x2048 : Shape := ⟨2, ![256, 2048]⟩

abbrev nBuf : Space → Nat
  | .hbm => 73
  | .vmem => 16
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S50000x512, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .f32⟩
  | .hbm, ⟨34, _⟩ => ⟨S50000x128, .f32⟩
  | .hbm, ⟨35, _⟩ => ⟨S800000x1, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S2048x128, .f32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2048x128, .f32⟩
  | .hbm, ⟨72, _⟩ => ⟨S2048x2048, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | .local _ .vmem, ⟨10, _⟩ => ⟨S256x128, .f32⟩
  | .local _ .vmem, ⟨11, _⟩ => ⟨S256x128, .f32⟩
  | .local _ .vmem, ⟨12, _⟩ => ⟨S128x128, .f32⟩
  | .local _ .vmem, ⟨13, _⟩ => ⟨S2048x128, .f32⟩
  | .local _ .vmem, ⟨14, _⟩ => ⟨S256x2048, .f32⟩
  | .local _ .vmem, ⟨15, _⟩ => ⟨S256x2048, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S2048 : S_.BroadcastsInDim S2048 (![] : Fin 0 → Fin S2048.rank)
  bcast_S2048_S2048x1_0 : S2048.BroadcastsInDim S2048x1 (![0] : Fin 1 → Fin S2048x1.rank)
  shapeCasts_S256x128_S256x128 : S256x128.ShapeCasts S256x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x2048_S256x2048_0_0 : ∀ a, (![0, 0] : Fin 2 → Nat) a + S256x2048.size a ≤ S256x2048.size a
  h_S256x2048 : 0 < S256x2048.numel
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S2048x1_S2048x128_1_0_n_n_0_1_1128_wf : GatherDims.WF S50000x128 S2048x1 S2048x128 [1] [0] [] [0] [] 1 ![1, 128]
  dot_S256x128_S128x128_S256x128_1_1_0_0_n_n_wf : DotDims.WF S256x128 S128x128 S256x128 [1] [1] [0] [0] [] []
  dot_S256x128_S2048x128_S256x2048_1_1_0_0_n_n_wf : DotDims.WF S256x128 S2048x128 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S2048x128.size a
  hwx2_0 : ∀ i : grid2.Coords, EltTy.bits .f32 = 32 ∨ (Rect.block (s := S2048x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S2048x128.size a
  hwx2_2 : ∀ i : grid2.Coords, EltTy.bits .f32 = 32 ∨ (Rect.block (s := S2048x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S2048x2048.size a
  hwx2_3 : ∀ i : grid2.Coords, EltTy.bits .f32 = 32 ∨ (Rect.block (s := S2048x2048) S256x2048.size (cc2_transform_3 i) (hinb2_3 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S2048x1_S2048x128_1_0_n_n_0_1_1128 : GatherDims S50000x128 S2048x1 S2048x128 where
  offsetDims := [1]
  collapsedSliceDims := [0]
  operandBatchingDims := []
  startIndicesBatchingDims := []
  startIndexMap := [0]
  indexVectorDim := 1
  sliceSizes := ![1, 128]
  wf := gather_S50000x128_S2048x1_S2048x128_1_0_n_n_0_1_1128_wf
def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf

abbrev win0_0 : Pipeline.Window sig grid0 :=
  Pipeline.Window.ofSpec (Memref.whole main_arg2) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2048x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S256x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048 : Shape := ⟨1, ![2048]⟩
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S2048x1 : Shape := ⟨2, ![2048, 1]⟩
abbrev S2048x128 : Shape := ⟨2, ![2048, 128]⟩
abbrev S128x2048 : Shape := ⟨2, ![128, 2048]⟩
abbrev S2048x2048 : Shape := ⟨2, ![2048, 2048]⟩

abbrev nBuf : Space → Nat
  | .hbm => 84
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S50000x512, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S512x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .f32⟩
  | .hbm, ⟨34, _⟩ => ⟨S50000x128, .f32⟩
  | .hbm, ⟨35, _⟩ => ⟨S800000x1, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S2048x128, .f32⟩
  | .hbm, ⟨63, _⟩ => ⟨S128x128, .f32⟩
  | .hbm, ⟨64, _⟩ => ⟨S2048x128, .f32⟩
  | .hbm, ⟨65, _⟩ => ⟨S_, .i32⟩
  | .hbm, ⟨66, _⟩ => ⟨S2048, .i32⟩
  | .hbm, ⟨67, _⟩ => ⟨S2048, .i1⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S2048, .i32⟩
  | .hbm, ⟨72, _⟩ => ⟨S2048x1, .i32⟩
  | .hbm, ⟨73, _⟩ => ⟨S2048x128, .f32⟩
  | .hbm, ⟨74, _⟩ => ⟨S128x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S_, .f32⟩
  | .hbm, ⟨82, _⟩ => ⟨S2048x2048, .f32⟩
  | .hbm, ⟨83, _⟩ => ⟨S2048x2048, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S2048 : S_.BroadcastsInDim S2048 (![] : Fin 0 → Fin S2048.rank)
  bcast_S2048_S2048x1_0 : S2048.BroadcastsInDim S2048x1 (![0] : Fin 1 → Fin S2048x1.rank)
  transposes_S128x128_S128x128_1_0 : S128x128.Transposes [1, 0] S128x128
  transposes_S2048x128_S128x2048_1_0 : S2048x128.Transposes [1, 0] S128x2048
  bcast_S_S2048x2048 : S_.BroadcastsInDim S2048x2048 (![] : Fin 0 → Fin S2048x2048.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S2048x1_S2048x128_1_0_n_n_0_1_1128_wf : GatherDims.WF S50000x128 S2048x1 S2048x128 [1] [0] [] [0] [] 1 ![1, 128]
  dot_S2048x128_S128x128_S2048x128_1_0_0_1_n_n_wf : DotDims.WF S2048x128 S128x128 S2048x128 [1] [0] [0] [1] [] []
  dot_S2048x128_S128x2048_S2048x2048_1_0_0_1_n_n_wf : DotDims.WF S2048x128 S128x2048 S2048x2048 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S2048x1_S2048x128_1_0_n_n_0_1_1128 : GatherDims S50000x128 S2048x1 S2048x128 where
  offsetDims := [1]
  collapsedSliceDims := [0]
  operandBatchingDims := []
  startIndicesBatchingDims := []
  startIndexMap := [0]
  indexVectorDim := 1
  sliceSizes := ![1, 128]
  wf := gather_S50000x128_S2048x1_S2048x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

class Facts : Prop extends Facts₀ where

variable [Facts]
-- ==== Proof.KernelRun.lean ====
/-
  The idealized kernel's run with its result named.

  The program is three grid-pipelined kernels among stretches of host operations. Its run visits seven
  boundaries; at each the contents of every buffer are known as a fold from the launch memory: a host stretch
  applies its operations, a kernel region replaces its arrays by what its write-backs leave. Every weakly fair
  execution therefore ends with EVERY buffer that outlives a region at the last boundary's contents. Read at the
  result buffer this names the result (the last region's output array after its last write-back); read at the
  arguments it gives them back unchanged, since no operation and no region writes an argument.
-/
import proofs.«131671_j23106924052715_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run_value : θ_run defs (onTc (τ := τ) (main (F := F))) ⟨m, fun _ => 0, ρ⟩ (fun r => ∀ c : Dev nD,
      r.2.mem ((c.tc : Thread nD τ).loc main_v49) = V6 m ρ c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.Boundaries.lean ====
/-
  The arguments at every boundary of the idealized kernel's run.

  No host operation and no kernel region writes an argument's buffer (a region only reads the arguments it takes,
  through input windows), so the contents of an argument's buffer at each boundary of the run — after the first
  region, at the second region's entry, after the second region, at the third region's entry — are its launch
  contents.
-/
import proofs.«131671_j23106924052715_1_alg».proof.Proof.Gen.KernelIdeal.Frame
import Idealize.ShloMosaic.Lib.StableHlo.Run

set_option maxRecDepth 16384

noncomputable section

open Idealize.ShloMosaic Idealize.ShloMosaic.TcCoe Idealize.SL.Sem
open Idealize.ShloMosaic.StableHlo

namespace Cert.KernelIdeal.Boundaries

open Cert.KernelIdeal Cert.KernelIdeal.Gen

variable {F : FTy → Type} [FloatOps F]
variable (m : (ℓ : Loc nD τ sig) → Buf (Elt F) ℓ) (ρ : Dev nD → PrngReg) (c : Dev nD)

theorem W1_arg3 : W1 m ρ c (Proc.devRef .tc main_arg3) = m ((c.tc : Thread nD τ).loc main_arg3) :=
  W1_of_ne m ρ c main_arg3 (by decide)
theorem W1_arg4 : W1 m ρ c (Proc.devRef .tc main_arg4) = m ((c.tc : Thread nD τ).loc main_arg4) :=
  W1_of_ne m ρ c main_arg4 (by decide)
theorem W1_arg5 : W1 m ρ c (Proc.devRef .tc main_arg5) = m ((c.tc : Thread nD τ).loc main_arg5) :=
  W1_of_ne m ρ c main_arg5 (by decide)
theorem W1_arg7 : W1 m ρ c (Proc.devRef .tc main_arg7) = m ((c.tc : Thread nD τ).loc main_arg7) :=
  W1_of_ne m ρ c main_arg7 (by decide)

theorem W3_arg0 : W3 m ρ c (Proc.devRef .tc main_arg0) = m ((c.tc : Thread nD τ).loc main_arg0) := by
  show StableHlo.after hostOps1_1 (StableHlo.after hostOps1 (W1 m ρ c)) (Proc.devRef .tc main_arg0) = _
  dsimp only [hostOps1, hostOps1_1]
  after_results
  exact W1_of_ne m ρ c main_arg0 (by decide)
theorem W3_arg1 : W3 m ρ c (Proc.devRef .tc main_arg1) = m ((c.tc : Thread nD τ).loc main_arg1) := by
  show StableHlo.after hostOps1_1 (StableHlo.after hostOps1 (W1 m ρ c)) (Proc.devRef .tc main_arg1) = _
  dsimp only [hostOps1, hostOps1_1]
  after_results
  exact W1_of_ne m ρ c main_arg1 (by decide)
theorem W3_arg3 : W3 m ρ c (Proc.devRef .tc main_arg3) = m ((c.tc : Thread nD τ).loc main_arg3) := by
  show StableHlo.after hostOps1_1 (StableHlo.after hostOps1 (W1 m ρ c)) (Proc.devRef .tc main_arg3) = _
  dsimp only [hostOps1, hostOps1_1]
  after_results
  exact W1_of_ne m ρ c main_arg3 (by decide)
theorem W3_arg4 : W3 m ρ c (Proc.devRef .tc main_arg4) = m ((c.tc : Thread nD τ).loc main_arg4) := by
  show StableHlo.after hostOps1_1 (StableHlo.after hostOps1 (W1 m ρ c)) (Proc.devRef .tc main_arg4) = _
  dsimp only [hostOps1, hostOps1_1]
  after_results
  exact W1_of_ne m ρ c main_arg4 (by decide)
theorem W3_arg5 : W3 m ρ c (Proc.devRef .tc main_arg5) = m ((c.tc : Thread nD τ).loc main_arg5) := by
  show StableHlo.after hostOps1_1 (StableHlo.after hostOps1 (W1 m ρ c)) (Proc.devRef .tc main_arg5) = _
  dsimp only [hostOps1, hostOps1_1]
  after_results
  exact W1_of_ne m ρ c main_arg5 (by decide)
theorem W3_arg8 : W3 m ρ c (Proc.devRef .tc main_arg8) = m ((c.tc : Thread nD τ).loc main_arg8) := by
  show StableHlo.after hostOps1_1 (StableHlo.after hostOps1 (W1 m ρ c)) (Proc.devRef .tc main_arg8) = _
  dsimp only [hostOps1, hostOps1_1]
  after_results
  exact W1_of_ne m ρ c main_arg8 (by decide)
theorem W3_arg9 : W3 m ρ c (Proc.devRef .tc main_arg9) = m ((c.tc : Thread nD τ).loc main_arg9) := by
  show StableHlo.after hostOps1_1 (StableHlo.after hostOps1 (W1 m ρ c)) (Proc.devRef .tc main_arg9) = _
  dsimp only [hostOps1, hostOps1_1]
  after_results
  exact W1_of_ne m ρ c main_arg9 (by decide)
theorem W3_arg10 : W3 m ρ c (Proc.devRef .tc main_arg10) = m ((c.tc : Thread nD τ).loc main_arg10) := by
  show StableHlo.after hostOps1_1 (StableHlo.after hostOps1 (W1 m ρ c)) (Proc.devRef .tc main_arg10) = _
  dsimp only [hostOps1, hostOps1_1]
  after_results
  exact W1_of_ne m ρ c main_arg10 (by decide)

theorem W4_arg0 : W4 m ρ c (Proc.devRef .tc main_arg0) = m ((c.tc : Thread nD τ).loc main_arg0) :=
  (W4_of_ne m ρ c main_arg0 (by decide)).trans (W3_arg0 m ρ c)
theorem W4_arg1 : W4 m ρ c (Proc.devRef .tc main_arg1) = m ((c.tc : Thread nD τ).loc main_arg1) :=
  (W4_of_ne m ρ c main_arg1 (by decide)).trans (W3_arg1 m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)
theorem W4_arg9 : W4 m ρ c (Proc.devRef .tc main_arg9) = m ((c.tc : Thread nD τ).loc main_arg9) :=
  (W4_of_ne m ρ c main_arg9 (by decide)).trans (W3_arg9 m ρ c)
theorem W4_arg10 : W4 m ρ c (Proc.devRef .tc main_arg10) = m ((c.tc : Thread nD τ).loc main_arg10) :=
  (W4_of_ne m ρ c main_arg10 (by decide)).trans (W3_arg10 m ρ c)

set_option maxHeartbeats 4000000 in
theorem W5_arg10 : W5 m ρ c (Proc.devRef .tc main_arg10) = m ((c.tc : Thread nD τ).loc main_arg10) := by
  show StableHlo.after hostOps2 (W4 m ρ c) (Proc.devRef .tc main_arg10) = _
  dsimp only [hostOps2]
  after_results_simp
  exact W4_arg10 m ρ c

end Cert.KernelIdeal.Boundaries

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.Support1.lean ====
/-
  The first dense projection, read off its grid: the kernel's result array is the whole product `x · W1`.

  The kernel's grid has 25 points; point `t` loads rows `2000·t … 2000·t + 1999` of the left operand and the
  whole right operand, multiplies them from the zero accumulator, and writes the product back as the same rows of the
  result. Entry `(a, b)` of a block's product is the sum over `k` of the block's `(a, k)` times the right operand's
  `(k, b)`, and the block's `(a, k)` is the left operand's `(2000·t + a, k)`: so what point `t` writes back is rows
  `2000·t …` of the whole product, the blocks cover every row, and the result array ends as the whole product —
  any array `G` whose entry `(p, o)` is `∑ k, l (p, k) * r (k, o)`.
-/
import proofs.«131671_j23106924052715_1_alg».proof.Proof.Gen.KernelIdeal.Frame
import proofs.«131671_j23106924052715_1_alg».proof.Proof.LibMatmulPlain
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Support1

open Cert.KernelIdeal Cert.KernelIdeal.Gen

variable (V : (c : Dev nD) → (b : Ref sig .tc) → Buf (Elt Ideal) ((c : Thread nD τ).loc b))

/-- The left operand's array as the region finds it. -/
abbrev lhs (c : Dev nD) : FVec Ideal S50000x512 .f32 := V c main_arg2
/-- The right operand's array as the region finds it. -/
abbrev rhs (c : Dev nD) : FVec Ideal S512x256 .f32 := V c main_arg6

theorem hz : (![0, 0] : Fin 2 → Nat) = fun _ => 0 := funext fun a => by fin_cases a <;> rfl

/-- The body's stored value at `(a, b)`: the block product's entry. -/
theorem pay_apply (x0 : Vec Ideal S2000x512 .f32) (x1 : Vec Ideal S512x256 .f32) (a : Fin 2000) (b : Fin 256) :
    k0_pay1 (F := Ideal) x0 x1 (ix2 a b) = ∑ k : Fin 512, x0 (ix2 a k) * x1 (ix2 k b) := by
  unfold k0_pay1
  exact Cert.MatmulPlain.matmul_plain_apply dot_S2000x512_S512x256_S2000x256_1_0_0_1_n_n rfl rfl rfl rfl rfl rfl none _ _ a b

/-- The printed index maps over the grid: the left operand's and the result's blocks move down the rows with the
    point, the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 25 := by
  have h := t.isLt; have hN : cfg0.N = 25 := N_0; omega

/-- Row `a` of point `t`'s block as a row of the array. -/
def row (t : Fin cfg0.N) (a : Fin 2000) : Fin 50000 := ⟨2000 * t.val + a.val, by have := t_lt t; omega⟩

/-- The left operand's block at point `t` is rows `2000·t …` of its array. -/
theorem lblk_apply (c : Dev nD) (t : Fin cfg0.N) (a : Fin 2000) (k : Fin 512) :
    (iblk0 V c 0 t : Vec Ideal S2000x512 .f32) (ix2 a k) = lhs V c (ix2 (row t a) k) := by
  obtain ⟨e0, e1, -⟩ := idx_facts t
  unfold iblk0
  rw [View.read_apply]
  show V c main_arg2 _ = V c main_arg2 _
  refine congrArg _ ?_
  funext d
  apply Fin.ext
  match d with
  | ⟨0, _⟩ => show win0_0.index t (0 : Fin 2) * 2000 + 1 * a.val = 2000 * t.val + a.val; rw [e0]; omega
  | ⟨1, _⟩ => show win0_0.index t (1 : Fin 2) * 512 + 1 * k.val = k.val; rw [e1]; omega

/-- The right operand's block at every point is its whole array. -/
theorem rblk_apply (c : Dev nD) (t : Fin cfg0.N) (k : Fin 512) (b : Fin 256) :
    (iblk0 V c 1 t : Vec Ideal S512x256 .f32) (ix2 k b) = rhs V c (ix2 k b) := by
  obtain ⟨-, -, e2, e3, -⟩ := idx_facts t
  unfold iblk0
  rw [View.read_apply]
  show V c main_arg6 _ = V c main_arg6 _
  refine congrArg _ ?_
  funext d
  apply Fin.ext
  match d with
  | ⟨0, _⟩ => show win0_1.index t (0 : Fin 2) * 512 + 1 * k.val = k.val; rw [e2]; omega
  | ⟨1, _⟩ => show win0_1.index t (1 : Fin 2) * 256 + 1 * b.val = b.val; rw [e3]; omega

variable (G : FVec Ideal S50000x256 .f32)

/-- What point `t` writes back is rows `2000·t …` of any array holding the whole product. -/
theorem flushed_eq (c : Dev nD)
    (hG : ∀ (p : Fin 50000) (o : Fin 256), G (ix2 p o)
      = ∑ k : Fin 512, lhs V c (ix2 p k) * rhs V c (ix2 k o))
    (t : Fin cfg0.N) :
    (dat0 V c).flushed 2 t = ((cfg0.win 2).blk t).view.read (Elt Ideal) G := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  funext j
  obtain ⟨a, b, rfl⟩ : ∃ (a : Fin 2000) (b : Fin 256), j = ix2 a b := ⟨j 0, j 1, eq_ix2 j⟩
  rw [View.read_apply]
  have hemb : ((cfg0.win 2).blk t).view.emb (ix2 a b) = (ix2 (row t a) b : S50000x256.Idx) := by
    funext d
    apply Fin.ext
    match d with
    | ⟨0, _⟩ => show win0_2.index t (0 : Fin 2) * 2000 + 1 * a.val = 2000 * t.val + a.val; rw [e4]; omega
    | ⟨1, _⟩ => show win0_2.index t (1 : Fin 2) * 256 + 1 * b.val = b.val; rw [e5]; omega
  rw [hemb, hG]
  refine (pay_apply _ _ a b).trans (Finset.sum_congr rfl fun k _ => ?_)
  rw [lblk_apply V c t a k, rblk_apply V c t k b]

/-- An index of the array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every row lies in the block of the point its number divided by 2000 names. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 256 ≤ (i 1).val ∧ (i 1).val < win0_2.index t (1 : Fin 2) * 256 + 256; rw [e5]; omega

/-- The result array after the region is the whole product. -/
theorem final (c : Dev nD)
    (hG : ∀ (p : Fin 50000) (o : Fin 256), G (ix2 p o)
      = ∑ k : Fin 512, lhs V c (ix2 p k) * rhs V c (ix2 k o)) :
    (dat0 V c).arrAt 2 cfg0.N = G :=
  (dat0 V c).arrAt_eq_of_cover 2 G (fun t _ => flushed_eq V G c hG t) (cover)

/-- The same with the two operand arrays named. -/
theorem final_of (c : Dev nD) (l : FVec Ideal S50000x512 .f32) (r : FVec Ideal S512x256 .f32)
    (hl : V c main_arg2 = l) (hr : V c main_arg6 = r)
    (hG : ∀ (p : Fin 50000) (o : Fin 256), G (ix2 p o) = ∑ k : Fin 512, l (ix2 p k) * r (ix2 k o)) :
    (dat0 V c).arrAt 2 cfg0.N = G := by
  subst hl hr
  exact final V G c hG

end Cert.KernelIdeal.Support1

end
-- ==== Proof.Support2.lean ====
/-
  The second dense projection, read off its grid: the kernel's result array is the whole product `h · W2`.

  The kernel's grid has 25 points; point `t` loads rows `2000·t … 2000·t + 1999` of the left operand and the
  whole right operand, multiplies them from the zero accumulator, and writes the product back as the same rows of the
  result. Entry `(a, b)` of a block's product is the sum over `k` of the block's `(a, k)` times the right operand's
  `(k, b)`, and the block's `(a, k)` is the left operand's `(2000·t + a, k)`: so what point `t` writes back is rows
  `2000·t …` of the whole product, the blocks cover every row, and the result array ends as the whole product —
  any array `G` whose entry `(p, o)` is `∑ k, l (p, k) * r (k, o)`.
-/
import proofs.«131671_j23106924052715_1_alg».proof.Proof.Gen.KernelIdeal.Frame
import proofs.«131671_j23106924052715_1_alg».proof.Proof.LibMatmulPlain
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Support2

open Cert.KernelIdeal Cert.KernelIdeal.Gen

variable (V : (c : Dev nD) → (b : Ref sig .tc) → Buf (Elt Ideal) ((c : Thread nD τ).loc b))

/-- The left operand's array as the region finds it. -/
abbrev lhs (c : Dev nD) : FVec Ideal S50000x256 .f32 := V c main_v17
/-- The right operand's array as the region finds it. -/
abbrev rhs (c : Dev nD) : FVec Ideal S256x128 .f32 := V c main_arg8

theorem hz : (![0, 0] : Fin 2 → Nat) = fun _ => 0 := funext fun a => by fin_cases a <;> rfl

/-- The body's stored value at `(a, b)`: the block product's entry. -/
theorem pay_apply (x0 : Vec Ideal S2000x256 .f32) (x1 : Vec Ideal S256x128 .f32) (a : Fin 2000) (b : Fin 128) :
    k1_pay1 (F := Ideal) x0 x1 (ix2 a b) = ∑ k : Fin 256, x0 (ix2 a k) * x1 (ix2 k b) := by
  unfold k1_pay1
  refine (Cert.MatmulPlain.matmul_plain_apply dot_S2000x256_S256x128_S2000x128_1_0_0_1_n_n rfl rfl rfl rfl rfl rfl none _ _ a b).trans
    (Finset.sum_congr rfl fun k _ => ?_)
  rw [shapeCast_self]
  rfl

/-- The printed index maps over the grid: the left operand's and the result's blocks move down the rows with the
    point, the right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 25 := by
  have h := t.isLt; have hN : cfg1.N = 25 := N_1; omega

/-- Row `a` of point `t`'s block as a row of the array. -/
def row (t : Fin cfg1.N) (a : Fin 2000) : Fin 50000 := ⟨2000 * t.val + a.val, by have := t_lt t; omega⟩

/-- The left operand's block at point `t` is rows `2000·t …` of its array. -/
theorem lblk_apply (c : Dev nD) (t : Fin cfg1.N) (a : Fin 2000) (k : Fin 256) :
    (iblk1 V c 0 t : Vec Ideal S2000x256 .f32) (ix2 a k) = lhs V c (ix2 (row t a) k) := by
  obtain ⟨e0, e1, -⟩ := idx_facts t
  unfold iblk1
  rw [View.read_apply]
  show V c main_v17 _ = V c main_v17 _
  refine congrArg _ ?_
  funext d
  apply Fin.ext
  match d with
  | ⟨0, _⟩ => show win1_0.index t (0 : Fin 2) * 2000 + 1 * a.val = 2000 * t.val + a.val; rw [e0]; omega
  | ⟨1, _⟩ => show win1_0.index t (1 : Fin 2) * 256 + 1 * k.val = k.val; rw [e1]; omega

/-- The right operand's block at every point is its whole array. -/
theorem rblk_apply (c : Dev nD) (t : Fin cfg1.N) (k : Fin 256) (b : Fin 128) :
    (iblk1 V c 1 t : Vec Ideal S256x128 .f32) (ix2 k b) = rhs V c (ix2 k b) := by
  obtain ⟨-, -, e2, e3, -⟩ := idx_facts t
  unfold iblk1
  rw [View.read_apply]
  show V c main_arg8 _ = V c main_arg8 _
  refine congrArg _ ?_
  funext d
  apply Fin.ext
  match d with
  | ⟨0, _⟩ => show win1_1.index t (0 : Fin 2) * 256 + 1 * k.val = k.val; rw [e2]; omega
  | ⟨1, _⟩ => show win1_1.index t (1 : Fin 2) * 128 + 1 * b.val = b.val; rw [e3]; omega

variable (G : FVec Ideal S50000x128 .f32)

/-- What point `t` writes back is rows `2000·t …` of any array holding the whole product. -/
theorem flushed_eq (c : Dev nD)
    (hG : ∀ (p : Fin 50000) (o : Fin 128), G (ix2 p o)
      = ∑ k : Fin 256, lhs V c (ix2 p k) * rhs V c (ix2 k o))
    (t : Fin cfg1.N) :
    (dat1 V c).flushed 2 t = ((cfg1.win 2).blk t).view.read (Elt Ideal) G := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  funext j
  obtain ⟨a, b, rfl⟩ : ∃ (a : Fin 2000) (b : Fin 128), j = ix2 a b := ⟨j 0, j 1, eq_ix2 j⟩
  rw [View.read_apply]
  have hemb : ((cfg1.win 2).blk t).view.emb (ix2 a b) = (ix2 (row t a) b : S50000x128.Idx) := by
    funext d
    apply Fin.ext
    match d with
    | ⟨0, _⟩ => show win1_2.index t (0 : Fin 2) * 2000 + 1 * a.val = 2000 * t.val + a.val; rw [e4]; omega
    | ⟨1, _⟩ => show win1_2.index t (1 : Fin 2) * 128 + 1 * b.val = b.val; rw [e5]; omega
  rw [hemb, hG]
  refine (pay_apply _ _ a b).trans (Finset.sum_congr rfl fun k _ => ?_)
  rw [lblk_apply V c t a k, rblk_apply V c t k b]

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v18).slice (win1_2.rect t)).set ↔ _
  rw [View.set_slice_whole, Rect.mem_set_unit]
  exact Iff.rfl

/-- Every row lies in the block of the point its number divided by 2000 names. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- The result array after the region is the whole product. -/
theorem final (c : Dev nD)
    (hG : ∀ (p : Fin 50000) (o : Fin 128), G (ix2 p o)
      = ∑ k : Fin 256, lhs V c (ix2 p k) * rhs V c (ix2 k o)) :
    (dat1 V c).arrAt 2 cfg1.N = G :=
  (dat1 V c).arrAt_eq_of_cover 2 G (fun t _ => flushed_eq V G c hG t) (cover)

/-- The same with the two operand arrays named. -/
theorem final_of (c : Dev nD) (l : FVec Ideal S50000x256 .f32) (r : FVec Ideal S256x128 .f32)
    (hl : V c main_v17 = l) (hr : V c main_arg8 = r)
    (hG : ∀ (p : Fin 50000) (o : Fin 128), G (ix2 p o) = ∑ k : Fin 256, l (ix2 p k) * r (ix2 k o)) :
    (dat1 V c).arrAt 2 cfg1.N = G := by
  subst hl hr
  exact final V G c hG

end Cert.KernelIdeal.Support2

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.Score.lean ====
/-
  The score of one candidate edge `(u, v)`: with `zu` and `zv` the two endpoints' embeddings (128 numbers each) and
  `We` the 128 × 128 edge matrix, `logistic (∑ r, (∑ k, zu k * We r k) * zv r)` — the bilinear form
  `(We · zu) · zv` passed through the logistic function — on the extended reals.
-/
import Idealize.ShloMosaic.PureOps.Ideal

noncomputable section

open scoped BigOperators

namespace Cert.Score

open Idealize.ShloMosaic

/-- The score of one pair from its row of `zu`, the matrix `We` and its row of `zv`. -/
def score (zu : Fin 128 → EReal) (we : Fin 128 → Fin 128 → EReal) (zv : Fin 128 → EReal) : EReal :=
  Ideal.logistic (∑ r : Fin 128, (∑ k : Fin 128, zu k * we r k) * zv r)

end Cert.Score

end
-- ==== Proof.EdgeScores.lean ====
/-
  The edge-scoring kernel, read off its grid: the kernel's result array is the logistic of `(zu · Weᵀ) · zvᵀ`.

  The kernel's grid has 8 points; point `t` loads rows `256·t … 256·t + 255` of `zu`, the whole of `We` and the whole of
  `zv`, forms `lin = zu_block · Weᵀ` (entry `(a, r)` the sum over `k` of `zu (a, k) * We (r, k)`), then
  `lin · zvᵀ` (entry `(a, q)` the sum over `r` of `lin (a, r) * zv (q, r)`), applies the logistic function entry by
  entry and writes the block back as rows `256·t …` of the result. A row of the result depends on the same row of
  `zu` only, so what point `t` writes back is rows `256·t …` of the whole array of scores, the blocks cover every row,
  and the result array ends as any array `G` whose entry `(p, q)` is
  `logistic (∑ r, (∑ k, zu (p, k) * We (r, k)) * zv (q, r))`.
-/
import proofs.«131671_j23106924052715_1_alg».proof.Proof.Gen.KernelIdeal.Frame
import proofs.«131671_j23106924052715_1_alg».proof.Proof.LibMatmulRows
import proofs.«131671_j23106924052715_1_alg».proof.Proof.Score
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.EdgeScores

open Cert.KernelIdeal Cert.KernelIdeal.Gen Cert.Score

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(a, q)`: the score of row `a` of the `zu` block against row `q` of `zv`. -/
theorem pay_apply (x0 : Vec Ideal S256x128 .f32) (x1 : Vec Ideal S128x128 .f32) (x2 : Vec Ideal S2048x128 .f32)
    (a : Fin 256) (q : Fin 2048) :
    k2_pay1 (F := Ideal) x0 x1 x2 (ix2 a q)
      = score (fun k => x0 (ix2 a k)) (fun r k => x1 (ix2 r k)) (fun r => x2 (ix2 q r)) := by
  unfold k2_pay1 score
  refine congrArg Ideal.logistic ?_
  refine (Cert.MatmulRows.matmul_rows_apply dot_S256x128_S2048x128_S256x2048_1_1_0_0_n_n none rfl rfl rfl rfl rfl rfl _ _ a q).trans
    (Finset.sum_congr rfl fun r _ => ?_)
  refine congrArg₂ (· * ·) ?_ ?_
  · refine (Cert.MatmulRows.matmul_rows_apply dot_S256x128_S128x128_S256x128_1_1_0_0_n_n none rfl rfl rfl rfl rfl rfl _ _ a r).trans
      (Finset.sum_congr rfl fun k _ => ?_)
    rw [shapeCast_self]
    rfl
  · rw [shapeCast_self]
    rfl

/-- The printed index maps over the grid: the `zu` block and the result's block move down the rows with the point,
    `We` and `zv` stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 8 := by
  have h := t.isLt; have hN : cfg2.N = 8 := N_2; omega

/-- Row `a` of point `t`'s block as a row of the array. -/
def row (t : Fin cfg2.N) (a : Fin 256) : Fin 2048 := ⟨256 * t.val + a.val, by have := t_lt t; omega⟩

/-- The `zu` block at point `t` is rows `256·t …` of its array. -/
theorem zu_apply (c : Dev nD) (t : Fin cfg2.N) (a : Fin 256) (k : Fin 128) :
    (iblk2 V c 0 t : Vec Ideal S256x128 .f32) (ix2 a k) = (V c main_v41 : S2048x128.Idx → Elt Ideal .f32) (ix2 (row t a) k) := by
  obtain ⟨e0, e1, -⟩ := idx_facts t
  unfold iblk2
  rw [View.read_apply]
  show V c main_v41 _ = V c main_v41 _
  refine congrArg _ ?_
  funext d
  apply Fin.ext
  match d with
  | ⟨0, _⟩ => show win2_0.index t (0 : Fin 2) * 256 + 1 * a.val = 256 * t.val + a.val; rw [e0]; omega
  | ⟨1, _⟩ => show win2_0.index t (1 : Fin 2) * 128 + 1 * k.val = k.val; rw [e1]; omega

/-- The `We` block at every point is the whole matrix. -/
theorem we_apply (c : Dev nD) (t : Fin cfg2.N) (r k : Fin 128) :
    (iblk2 V c 1 t : Vec Ideal S128x128 .f32) (ix2 r k) = (V c main_arg10 : S128x128.Idx → Elt Ideal .f32) (ix2 r k) := by
  obtain ⟨-, -, e2, e3, -⟩ := idx_facts t
  unfold iblk2
  rw [View.read_apply]
  show V c main_arg10 _ = V c main_arg10 _
  refine congrArg _ ?_
  funext d
  apply Fin.ext
  match d with
  | ⟨0, _⟩ => show win2_1.index t (0 : Fin 2) * 128 + 1 * r.val = r.val; rw [e2]; omega
  | ⟨1, _⟩ => show win2_1.index t (1 : Fin 2) * 128 + 1 * k.val = k.val; rw [e3]; omega

/-- The `zv` block at every point is the whole array. -/
theorem zv_apply (c : Dev nD) (t : Fin cfg2.N) (q : Fin 2048) (r : Fin 128) :
    (iblk2 V c 2 t : Vec Ideal S2048x128 .f32) (ix2 q r) = (V c main_v48 : S2048x128.Idx → Elt Ideal .f32) (ix2 q r) := by
  obtain ⟨-, -, -, -, e4, e5, -⟩ := idx_facts t
  unfold iblk2
  rw [View.read_apply]
  show V c main_v48 _ = V c main_v48 _
  refine congrArg _ ?_
  funext d
  apply Fin.ext
  match d with
  | ⟨0, _⟩ => show win2_2.index t (0 : Fin 2) * 2048 + 1 * q.val = q.val; rw [e4]; omega
  | ⟨1, _⟩ => show win2_2.index t (1 : Fin 2) * 128 + 1 * r.val = r.val; rw [e5]; omega

variable (G : FVec Ideal S2048x2048 .f32)

/-- What `G` must hold: every pair's score from the three arrays as the region finds them. -/
def IsScores (c : Dev nD) : Prop :=
  ∀ (p q : Fin 2048), G (ix2 p q)
    = score (fun k => (V c main_v41 : S2048x128.Idx → Elt Ideal .f32) (ix2 p k))
        (fun r k => (V c main_arg10 : S128x128.Idx → Elt Ideal .f32) (ix2 r k))
        (fun r => (V c main_v48 : S2048x128.Idx → Elt Ideal .f32) (ix2 q r))

/-- What point `t` writes back is rows `256·t …` of any array holding all the scores. -/
theorem flushed_eq (c : Dev nD) (hG : IsScores V G c) (t : Fin cfg2.N) :
    (dat2 V c).flushed 3 t = ((cfg2.win 3).blk t).view.read (Elt Ideal) G := by
  obtain ⟨-, -, -, -, -, -, e6, e7⟩ := idx_facts t
  show (cfg2.win 3).cut (grid2.coords t) ((dat2 V c).after 3 t) = _
  rw [after2_3]
  unfold out2_3
  rw [View.canon_unit_zero hz]
  simp only [View.ld_unit_zero (S := S256x128) hz, View.ld_unit_zero (S := S128x128) hz, View.ld_unit_zero (S := S2048x128) hz]
  funext j
  obtain ⟨a, q, rfl⟩ : ∃ (a : Fin 256) (q : Fin 2048), j = ix2 a q := ⟨j 0, j 1, eq_ix2 j⟩
  rw [View.read_apply]
  have hemb : ((cfg2.win 3).blk t).view.emb (ix2 a q) = (ix2 (row t a) q : S2048x2048.Idx) := by
    funext d
    apply Fin.ext
    match d with
    | ⟨0, _⟩ => show win2_3.index t (0 : Fin 2) * 256 + 1 * a.val = 256 * t.val + a.val; rw [e6]; omega
    | ⟨1, _⟩ => show win2_3.index t (1 : Fin 2) * 2048 + 1 * q.val = q.val; rw [e7]; omega
  rw [hemb, hG (row t a) q]
  refine (pay_apply _ _ _ a q).trans ?_
  have h0 : (fun k => (iblk2 V c 0 t : Vec Ideal S256x128 .f32) (ix2 a k))
      = fun k => (V c main_v41 : S2048x128.Idx → Elt Ideal .f32) (ix2 (row t a) k) := funext fun k => zu_apply V c t a k
  have h1 : (fun r k => (iblk2 V c 1 t : Vec Ideal S128x128 .f32) (ix2 r k))
      = fun r k => (V c main_arg10 : S128x128.Idx → Elt Ideal .f32) (ix2 r k) := funext fun r => funext fun k => we_apply V c t r k
  have h2 : (fun r => (iblk2 V c 2 t : Vec Ideal S2048x128 .f32) (ix2 q r))
      = fun r => (V c main_v48 : S2048x128.Idx → Elt Ideal .f32) (ix2 q r) := funext fun r => zv_apply V c t q r
  rw [h0, h1, h2]
  rfl

/-- An index of the array is in point `t`'s block iff each coordinate is in the block's range on its axis. -/
theorem mem_blk (t : Fin cfg2.N) (i : S2048x2048.Idx) :
    i ∈ ((cfg2.win 3).blk t).view.set ↔ ∀ a : Fin 2, win2_3.index t a * S256x2048.size a ≤ (i a).val ∧ (i a).val < win2_3.index t a * S256x2048.size a + S256x2048.size a := by
  show i ∈ ((View.whole main_v49).slice (win2_3.rect t)).set ↔ _
  rw [View.set_slice_whole, Rect.mem_set_unit]
  exact Iff.rfl

/-- Every row lies in the block of the point its number divided by 256 names. -/
theorem cover (i : S2048x2048.Idx) : ∃ t : Fin cfg2.N, (cfg2.win 3).flush t = true ∧ i ∈ ((cfg2.win 3).blk t).view.set := by
  have hi0 : (i 0).val < 2048 := (i 0).isLt
  have hi1 : (i 1).val < 2048 := (i 1).isLt
  have hN : cfg2.N = 8 := N_2
  let t : Fin cfg2.N := ⟨(i 0).val / 256, by rw [hN]; omega⟩
  obtain ⟨-, -, -, -, -, -, e6, e7⟩ := idx_facts t
  have ht : t.val = (i 0).val / 256 := rfl
  refine ⟨t, flush2_3 t, ?_⟩
  rw [mem_blk]
  intro a
  match a with
  | ⟨0, _⟩ => show win2_3.index t (0 : Fin 2) * 256 ≤ (i 0).val ∧ (i 0).val < win2_3.index t (0 : Fin 2) * 256 + 256; rw [e6, ht]; omega
  | ⟨1, _⟩ => show win2_3.index t (1 : Fin 2) * 2048 ≤ (i 1).val ∧ (i 1).val < win2_3.index t (1 : Fin 2) * 2048 + 2048; rw [e7]; omega

/-- The result array after the region holds all the scores. -/
theorem final (c : Dev nD) (hG : IsScores V G c) : (dat2 V c).arrAt 3 cfg2.N = G :=
  (dat2 V c).arrAt_eq_of_cover 3 G (fun t _ => flushed_eq V G c hG t) (cover)

/-- The same with the three operand arrays named. -/
theorem final_of (c : Dev nD) (zu : FVec Ideal S2048x128 .f32) (we : FVec Ideal S128x128 .f32) (zv : FVec Ideal S2048x128 .f32)
    (hzu : V c main_v41 = zu) (hwe : V c main_arg10 = we) (hzv : V c main_v48 = zv)
    (hG : ∀ (p q : Fin 2048), G (ix2 p q)
      = score (fun k => zu (ix2 p k)) (fun r k => we (ix2 r k)) (fun r => zv (ix2 q r))) :
    (dat2 V c).arrAt 3 cfg2.N = G := by
  subst hzu hwe hzv
  exact final V G c hG

end Cert.KernelIdeal.EdgeScores

end
-- ==== Proof.LibHostDotPlain.lean ====
/-
  A plain host matrix product read at an index.

  A host `dot_general` of a left operand `[M, K]` by a right operand `[K, N]` that contracts the left operand's
  second axis against the right operand's first, with no batch axis, is at the exact values the textbook product:
  entry `(p, o)` is the sum over `k : Fin K` of `l (p, k) * r (k, o)`, whatever the schedule key. It is the same
  sum a `tpu.matmul` of that layout started from zero computes, so a product computed row block by row block and a
  product computed whole agree entry by entry. Stated for any record whose six axis lists are
  `[1] [0] [0] [1] [] []` (on a printed record each hypothesis is `rfl`), general in the three extents and in the
  operands' float formats.
-/
import Idealize.ShloMosaic.PureOps.Ideal.Laws
import Idealize.ShloMosaic.Lib.ValueIdx
import proofs.«131671_j23106924052715_1_alg».proof.Proof.LibMatmulPlain

noncomputable section

open scoped BigOperators

namespace Cert.HostDotPlain

open Idealize.ShloMosaic Idealize.ShloMosaic.ValueIdx Cert.MatmulPlain

variable {M K N : ℕ}

/-- A plain host matrix product read at `(p, o)`: `∑ k, l (p, k) * r (k, o)`. -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (p : Fin M) (o : Fin N) :
    FloatOps.dotGeneral d prec sched l r (ix2 p o) = ∑ k : Fin K, l (ix2 p k) * r (ix2 k o) := by
  rw [Ideal.dotGeneral_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.HostDotPlain

end
-- ==== Proof.RefScores.lean ====
/-
  The reference's last stretch — two matrix products with transposed right operands, then `1 / (1 + e⁻ˣ)` — read at
  an index as the same score the kernel computes.

  The reference forms `zu · transpose We` (entry `(p, r)` the sum over `k` of `zu (p, k) * We (r, k)`, the transposed
  matrix read back at the swapped index), then multiplies by `transpose zv` (entry `(p, q)` the sum over `r` of the
  first product's `(p, r)` times `zv (q, r)`), and applies `1 / (1 + exp (-x))` entry by entry, spelt with the constant
  `1.0` broadcast. On the extended reals the logistic function IS that expression, the float `1.0` denotes `1`, so
  entry `(p, q)` is `logistic (∑ r, (∑ k, zu (p, k) * We (r, k)) * zv (q, r))`: no law beyond reading each operation at an
  index is used, the two sums are taken in the same order on both sides.
-/
import proofs.«131671_j23106924052715_1_alg».proof.Proof.Gen.ReferenceIdeal.Read
import proofs.«131671_j23106924052715_1_alg».proof.Proof.LibHostDotPlain
import proofs.«131671_j23106924052715_1_alg».proof.Proof.Score
import Idealize.ShloMosaic.Lib.Pipeline.Value
import Idealize.ShloMosaic.Lib.ValueIdx

noncomputable section

open Idealize.ShloMosaic Idealize.ShloMosaic.TcCoe Idealize.SL.Sem Idealize.ShloMosaic.ValueIdx
open scoped BigOperators

namespace Cert.ReferenceIdeal.RefScores

open Cert.ReferenceIdeal Cert.ReferenceIdeal.Gen Cert.Score

/-- The float `1.0` denotes the real `1`. -/
theorem ofBits_one : Ideal.ofBits .f32 0x3F800000#32 = 1 := by
  simp [Ideal.ofBits, Ideal.ieee, -EReal.coe_mul]; norm_num

/-- The reference's last stretch as a function of the two gathered row sets and `We`. -/
def tail (zu : FVec Ideal S2048x128 .f32) (we : FVec Ideal S128x128 .f32) (zv : FVec Ideal S2048x128 .f32) :
    FVec Ideal S2048x2048 .f32 :=
  Host.divf (broadcastInDim S2048x2048 ![] bcast_S_S2048x2048 (constant S_ .f32 0x3F800000#32))
    (addf (broadcastInDim S2048x2048 ![] bcast_S_S2048x2048 (constant S_ .f32 0x3F800000#32))
      (Host.exp (Host.negf
        (Host.dotGeneral dot_S2048x128_S128x2048_S2048x2048_1_0_0_1_n_n none
          (Host.dotGeneral dot_S2048x128_S128x128_S2048x128_1_0_0_1_n_n none zu
            (transpose S128x128 [1, 0] we transposes_S128x128_S128x128_1_0))
          (transpose S128x2048 [1, 0] zv transposes_S2048x128_S128x2048_1_0)))))

/-- The two products, read at `(p, q)`. -/
theorem logits_apply (zu : FVec Ideal S2048x128 .f32) (we : FVec Ideal S128x128 .f32) (zv : FVec Ideal S2048x128 .f32)
    (p q : Fin 2048) :
    Host.dotGeneral dot_S2048x128_S128x2048_S2048x2048_1_0_0_1_n_n none
        (Host.dotGeneral dot_S2048x128_S128x128_S2048x128_1_0_0_1_n_n none zu
          (transpose S128x128 [1, 0] we transposes_S128x128_S128x128_1_0))
        (transpose S128x2048 [1, 0] zv transposes_S2048x128_S128x2048_1_0) (ix2 p q)
      = ∑ r : Fin 128, (∑ k : Fin 128, zu (ix2 p k) * we (ix2 r k)) * zv (ix2 q r) := by
  refine (Cert.HostDotPlain.dotGeneral_plain_apply dot_S2048x128_S128x2048_S2048x2048_1_0_0_1_n_n rfl rfl rfl rfl rfl rfl
    none .single _ _ p q).trans (Finset.sum_congr rfl fun r _ => ?_)
  refine congrArg₂ (· * ·) ?_ ?_
  · refine (Cert.HostDotPlain.dotGeneral_plain_apply dot_S2048x128_S128x128_S2048x128_1_0_0_1_n_n rfl rfl rfl rfl rfl rfl
      none .single _ _ p r).trans (Finset.sum_congr rfl fun k _ => ?_)
    refine congrArg (zu (ix2 p k) * ·) ?_
    exact transpose_apply [1, 0] we transposes_S128x128_S128x128_1_0 (ix2 k r) (ix2 r k) (fun b => match b with
      | ⟨0, _⟩ => rfl
      | ⟨1, _⟩ => rfl)
  · exact transpose_apply [1, 0] zv transposes_S2048x128_S128x2048_1_0 (ix2 r q) (ix2 q r) (fun b => match b with
      | ⟨0, _⟩ => rfl
      | ⟨1, _⟩ => rfl)

/-- The reference's last stretch at `(p, q)` is the pair's score. -/
theorem tail_apply (zu : FVec Ideal S2048x128 .f32) (we : FVec Ideal S128x128 .f32) (zv : FVec Ideal S2048x128 .f32)
    (p q : Fin 2048) :
    tail zu we zv (ix2 p q)
      = score (fun k => zu (ix2 p k)) (fun r k => we (ix2 r k)) (fun r => zv (ix2 q r)) := by
  unfold tail score
  show Ideal.div (Ideal.ofBits .f32 0x3F800000#32) (Ideal.ofBits .f32 0x3F800000#32 + Ideal.exp (-(
      Host.dotGeneral dot_S2048x128_S128x2048_S2048x2048_1_0_0_1_n_n none
        (Host.dotGeneral dot_S2048x128_S128x128_S2048x128_1_0_0_1_n_n none zu
          (transpose S128x128 [1, 0] we transposes_S128x128_S128x128_1_0))
        (transpose S128x2048 [1, 0] zv transposes_S2048x128_S128x2048_1_0) (ix2 p q)))) = _
  rw [logits_apply, ofBits_one]
  rfl

/-- The reference's result stage is its last stretch applied to the two gathered row sets and `We`. -/
theorem val_eq_tail (x0 x1 : (⟨S2048, .i32⟩ : BufTy).Contents (Elt Ideal)) (x2 : (⟨S50000x512, .f32⟩ : BufTy).Contents (Elt Ideal))
    (x3 x4 : (⟨S800000, .i32⟩ : BufTy).Contents (Elt Ideal)) (x5 : (⟨S800000, .f32⟩ : BufTy).Contents (Elt Ideal))
    (x6 : (⟨S512x256, .f32⟩ : BufTy).Contents (Elt Ideal)) (x7 : (⟨S256, .f32⟩ : BufTy).Contents (Elt Ideal))
    (x8 : (⟨S256x128, .f32⟩ : BufTy).Contents (Elt Ideal)) (x9 : (⟨S128, .f32⟩ : BufTy).Contents (Elt Ideal))
    (x10 : (⟨S128x128, .f32⟩ : BufTy).Contents (Elt Ideal)) :
    Read.val_main_v58 (F := Ideal) x0 x1 x2 x3 x4 x5 x6 x7 x8 x9 x10
      = tail (Read.val_main_v41 (F := Ideal) x0 x2 x3 x4 x5 x6 x7 x8 x9) x10
          (Read.val_main_v50 (F := Ideal) x1 x2 x3 x4 x5 x6 x7 x8 x9) := rfl

end Cert.ReferenceIdeal.RefScores

end
-- ==== Proof.Stages.lean ====
/-
  The idealized kernel's run, stage by stage, against the reference's stages.

  Both programs are the same chain: a dense projection `x · W1`; the sparse aggregation (gather the rows the edges name,
  scale by the edge values, add into the target rows), bias and `max (·, 0)`; a second projection by `W2`; the second
  aggregation and bias; the rows of `u` and of `v`; the edge scores. The host stretches are the same operations in
  both, so each boundary of the kernel's run holds the reference's stage of the same name once the pipelined
  products are known to be the whole products: the first projection's array is the reference's first product
  (each block of 2000 rows is those rows of the product); hence the hidden layer agrees; hence the second
  projection; hence the two gathered row sets; and the scoring kernel's array holds, pair by pair, the score the
  reference's last stretch computes. The sums are taken over the same index in the same order on both sides, so no
  law of the extended reals beyond reading each operation at an index is needed, and the finiteness of the inputs is
  never used.
-/
import proofs.«131671_j23106924052715_1_alg».proof.Proof.KernelRun
import proofs.«131671_j23106924052715_1_alg».proof.Proof.Boundaries
import proofs.«131671_j23106924052715_1_alg».proof.Proof.Support1
import proofs.«131671_j23106924052715_1_alg».proof.Proof.Support2
import proofs.«131671_j23106924052715_1_alg».proof.Proof.EdgeScores
import proofs.«131671_j23106924052715_1_alg».proof.Proof.RefScores
import proofs.«131671_j23106924052715_1_alg».proof.Proof.LibHostDotPlain
import proofs.«131671_j23106924052715_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.KernelIdeal.Stages

open Cert.KernelIdeal Cert.KernelIdeal.Gen Cert.KernelIdeal.Boundaries

variable (m : (ℓ : Loc nD τ sig) → Buf (Elt Ideal) ℓ) (ρ : Dev nD → PrngReg) (c : Dev nD)

/-! ## The stages -/

/-- After the first region its result array is the reference's first product. -/
theorem support1 : W1 m ρ c (Proc.devRef .tc main_v0) = Cert.ReferenceIdeal.Read.val_main_v0 (F := Ideal) (m ((c.tc : Thread nD τ).loc main_arg2)) (m ((c.tc : Thread nD τ).loc main_arg6)) := by
  refine (W1_arr m ρ c 2).trans ?_
  refine Cert.KernelIdeal.Support1.final_of (V0 m ρ) _ c (m ((c.tc : Thread nD τ).loc main_arg2)) (m ((c.tc : Thread nD τ).loc main_arg6)) rfl rfl (fun p o => ?_)
  exact Cert.HostDotPlain.dotGeneral_plain_apply Cert.ReferenceIdeal.dot_S50000x512_S512x256_S50000x256_1_0_0_1_n_n
    rfl rfl rfl rfl rfl rfl none .single (m ((c.tc : Thread nD τ).loc main_arg2)) (m ((c.tc : Thread nD τ).loc main_arg6)) p o

set_option maxHeartbeats 4000000 in
/-- After the first host stretch the aggregated, biased first layer is the reference's. -/
theorem layer1 : W2 m ρ c (Proc.devRef .tc main_v16) = Cert.ReferenceIdeal.Read.val_main_v16 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps1 (W1 m ρ c) (Proc.devRef .tc main_v16) = _
  dsimp only [hostOps1]
  after_results_simp
  rw [support1 m ρ c, W1_arg3 m ρ c, W1_arg4 m ρ c, W1_arg5 m ρ c, W1_arg7 m ρ c]
  rfl

/-- The `max (·, 0)` stretch from any contents: the entrywise maximum of what it finds with the zero array. -/
theorem relu_step (V : Valuation τ sig (Elt Ideal)) :
    StableHlo.after hostOps1_1 V (Proc.devRef .tc main_v17)
      = maximumf (s := S50000x256) (φ := .f32) (V (Proc.devRef .tc main_v16))
          (broadcastInDim S50000x256 ![] bcast_S_S50000x256 (constant (F := Ideal) S_ .f32 0x00000000#32)) := by
  dsimp only [hostOps1_1]
  after_results
  rfl

/-- At the second region's entry the hidden layer is the reference's. -/
theorem hidden : W3 m ρ c (Proc.devRef .tc main_v17) = Cert.ReferenceIdeal.Read.val_main_v17 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (relu_step (W2 m ρ c)).trans ?_
  rw [layer1 m ρ c]
  rfl

/-- After the second region its result array is the reference's second product. -/
theorem support2 : W4 m ρ c (Proc.devRef .tc main_v18) = Cert.ReferenceIdeal.Read.val_main_v18 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 2).trans ?_
  refine Cert.KernelIdeal.Support2.final_of (V3 m ρ) _ c (Cert.ReferenceIdeal.Read.val_main_v17 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))
    (hidden m ρ c) (W3_arg8 m ρ c) (fun p o => ?_)
  exact Cert.HostDotPlain.dotGeneral_plain_apply Cert.ReferenceIdeal.dot_S50000x256_S256x128_S50000x128_1_0_0_1_n_n
    rfl rfl rfl rfl rfl rfl none .single (Cert.ReferenceIdeal.Read.val_main_v17 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) p o

set_option maxHeartbeats 4000000 in
/-- At the third region's entry the rows of `u` are the reference's. -/
theorem rows_u : W5 m ρ c (Proc.devRef .tc main_v41) = Cert.ReferenceIdeal.Read.val_main_v41 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W4 m ρ c) (Proc.devRef .tc main_v41) = _
  dsimp only [hostOps2]
  after_results_simp
  rw [support2 m ρ c, W4_arg0 m ρ c, W4_arg3 m ρ c, W4_arg4 m ρ c, W4_arg5 m ρ c, W4_arg9 m ρ c]
  rfl

set_option maxHeartbeats 4000000 in
/-- At the third region's entry the rows of `v` are the reference's. -/
theorem rows_v : W5 m ρ c (Proc.devRef .tc main_v48) = Cert.ReferenceIdeal.Read.val_main_v50 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W4 m ρ c) (Proc.devRef .tc main_v48) = _
  dsimp only [hostOps2]
  after_results_simp
  rw [support2 m ρ c, W4_arg1 m ρ c, W4_arg3 m ρ c, W4_arg4 m ρ c, W4_arg5 m ρ c, W4_arg9 m ρ c]
  rfl

/-- After the last region the result array is the reference's result stage. -/
theorem scores : V6 m ρ c main_v49 = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 3).trans ?_
  refine Cert.KernelIdeal.EdgeScores.final_of (V5 m ρ) _ c
    (Cert.ReferenceIdeal.Read.val_main_v41 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10))
    (Cert.ReferenceIdeal.Read.val_main_v50 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (rows_u m ρ c) (W5_arg10 m ρ c) (rows_v m ρ c) (fun p q => ?_)
  rw [Cert.ReferenceIdeal.RefScores.val_eq_tail]
  exact Cert.ReferenceIdeal.RefScores.tail_apply _ _ _ p q

/-- The idealized kernel's run: the result is the reference's result stage of the launch arguments, the arguments
    unchanged. -/
theorem run : θ_run defs (onTc (τ := τ) (main (F := Ideal))) ⟨m, fun _ => 0, ρ⟩ (fun r => ∀ c : Dev nD,
      r.2.mem ((c.tc : Thread nD τ).loc main_v49) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (scores m ρ c), (h c).2⟩) (Cert.KernelIdeal.Hand.run_value (F := Ideal) m ρ)

end Cert.KernelIdeal.Stages

end
-- ==== Proof.lean ====
/-
  A two-layer graph convolution followed by edge scoring: the Pallas kernel against its jnp reference, equal as
  extended reals.

  Both programs compute, from node features `x`, a sparse adjacency in coordinate form and the weights,
  `h = max (A (x W1) + b1, 0)`, `z = A (h W2) + b2`, and for each pair of the listed nodes `u`, `v` the score
  `logistic ((z_u Weᵀ) · z_v)`. The kernel runs the two dense projections and the scoring as grid-pipelined
  kernels over blocks of rows, rounding operands to bf16 on the way into each product; the reference runs whole
  products. At the exact values a change of float format is the identity, a product computed block of rows by
  block of rows is the whole product entry by entry, the host operations between the kernels are the reference's
  own, and the logistic function is `1 / (1 + e⁻ˣ)`: so every stage of the kernel's run holds the reference's stage
  of the same name (Proof/Stages.lean), and the results are equal. No rewrite was applied when the kernel was
  idealized, so the idealization is the program's own text read at the exact values. The frames of the two kernel
  programs are the generated ones; the reference's is its generated run with the result dropped.
-/
import proofs.«131671_j23106924052715_1_alg».proof.Defs
import proofs.«131671_j23106924052715_1_alg».proof.Proof.Gen.Kernel
import proofs.«131671_j23106924052715_1_alg».proof.Proof.Gen.Kernel.Skeleton
import proofs.«131671_j23106924052715_1_alg».proof.Proof.Gen.Kernel.Launch
import proofs.«131671_j23106924052715_1_alg».proof.Proof.Gen.Kernel.Points
import proofs.«131671_j23106924052715_1_alg».proof.Proof.Gen.Kernel.Frame
import proofs.«131671_j23106924052715_1_alg».proof.Proof.Gen.KernelIdeal
import proofs.«131671_j23106924052715_1_alg».proof.Proof.Gen.KernelIdeal.Skeleton
import proofs.«131671_j23106924052715_1_alg».proof.Proof.Gen.KernelIdeal.Launch
import proofs.«131671_j23106924052715_1_alg».proof.Proof.Gen.KernelIdeal.Points
import proofs.«131671_j23106924052715_1_alg».proof.Proof.Gen.KernelIdeal.Frame
import proofs.«131671_j23106924052715_1_alg».proof.Proof.Gen.ReferenceIdeal
import proofs.«131671_j23106924052715_1_alg».proof.Proof.Gen.Pre_finite_inputs
import proofs.«131671_j23106924052715_1_alg».proof.Proof.Gen.ReferenceIdeal.Run
import proofs.«131671_j23106924052715_1_alg».proof.Proof.Gen.ReferenceIdeal.Read
import proofs.«131671_j23106924052715_1_alg».proof.Proof.Stages
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run terminates with its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the result at the reference's result stage of
    those arguments: the kernel by its run read stage by stage, the reference by its generated run. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Stages.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v58_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
